-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  main_v3
-- ==== Kernel.lean ====
abbrev S8x4096x512 : Shape := ⟨3, ![8, 4096, 512]⟩
abbrev S1x4096x512 : Shape := ⟨3, ![1, 4096, 512]⟩
abbrev S512x512 : Shape := ⟨2, ![512, 512]⟩
abbrev S1x512x512 : Shape := ⟨3, ![1, 512, 512]⟩

abbrev nBuf : Space → Nat
  | .hbm => 2
  | .vmem => 5
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .local _ .vmem, ⟨0, _⟩ => ⟨S1x4096x512, .f32⟩
  | .local _ .vmem, ⟨1, _⟩ => ⟨S1x4096x512, .f32⟩
  | .local _ .vmem, ⟨2, _⟩ => ⟨S1x4096x512, .f32⟩
  | .local _ .vmem, ⟨3, _⟩ => ⟨S1x4096x512, .f32⟩
  | .local _ .vmem, ⟨4, _⟩ => ⟨S512x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c512_i32 : BitVec 32 := 512#32
  let v4 : BitVec 32 := Scalar.muli c0_i32 c512_i32
  v4
def k0_off1 (c0_i32 : BitVec 32) : Fin 3 → Nat :=
  let c0_1 : Index := 0#32
  let c512_i32 : BitVec 32 := 512#32
  let v4 : BitVec 32 := Scalar.muli c0_i32 c512_i32
  let v5 : BitVec 32 := v4
  let v6 : Index := Scalar.indexCast v5
  let c0_2 : Index := 0#32
  ![0, v6.toNat, 0]
def k0_mult2 : BitVec 32 :=
  let c1_i32 : BitVec 32 := 1#32
  let c512_i32_8 : BitVec 32 := 512#32
  let v16 : BitVec 32 := Scalar.muli c1_i32 c512_i32_8
  v16
def k0_mult3 : BitVec 32 :=
  let c2_i32 : BitVec 32 := 2#32
  let c512_i32_16 : BitVec 32 := 512#32
  let v28 : BitVec 32 := Scalar.muli c2_i32 c512_i32_16
  v28
def k0_mult4 : BitVec 32 :=
  let c3_i32 : BitVec 32 := 3#32
  let c512_i32_24 : BitVec 32 := 512#32
  let v40 : BitVec 32 := Scalar.muli c3_i32 c512_i32_24
  v40
def k0_mult5 : BitVec 32 :=
  let c4_i32 : BitVec 32 := 4#32
  let c512_i32_32 : BitVec 32 := 512#32
  let v52 : BitVec 32 := Scalar.muli c4_i32 c512_i32_32
  v52
def k0_mult6 : BitVec 32 :=
  let c5_i32 : BitVec 32 := 5#32
  let c512_i32_40 : BitVec 32 := 512#32
  let v64 : BitVec 32 := Scalar.muli c5_i32 c512_i32_40
  v64
def k0_mult7 : BitVec 32 :=
  let c6_i32 : BitVec 32 := 6#32
  let c512_i32_48 : BitVec 32 := 512#32
  let v76 : BitVec 32 := Scalar.muli c6_i32 c512_i32_48
  v76
def k0_mult8 : BitVec 32 :=
  let c7_i32 : BitVec 32 := 7#32
  let c512_i32_56 : BitVec 32 := 512#32
  let v88 : BitVec 32 := Scalar.muli c7_i32 c512_i32_56
  v88
def k0_mult9 : BitVec 32 :=
  let c0_i32_66 : BitVec 32 := 0#32
  let c512_i32_67 : BitVec 32 := 512#32
  let v102 : BitVec 32 := Scalar.muli c0_i32_66 c512_i32_67
  v102
def k0_mult10 : BitVec 32 :=
  let c1_i32_73 : BitVec 32 := 1#32
  let c512_i32_74 : BitVec 32 := 512#32
  let v113 : BitVec 32 := Scalar.muli c1_i32_73 c512_i32_74
  v113
def k0_mult11 : BitVec 32 :=
  let c2_i32_80 : BitVec 32 := 2#32
  let c512_i32_81 : BitVec 32 := 512#32
  let v124 : BitVec 32 := Scalar.muli c2_i32_80 c512_i32_81
  v124
def k0_mult12 : BitVec 32 :=
  let c3_i32_87 : BitVec 32 := 3#32
  let c512_i32_88 : BitVec 32 := 512#32
  let v135 : BitVec 32 := Scalar.muli c3_i32_87 c512_i32_88
  v135
def k0_mult13 : BitVec 32 :=
  let c4_i32_94 : BitVec 32 := 4#32
  let c512_i32_95 : BitVec 32 := 512#32
  let v146 : BitVec 32 := Scalar.muli c4_i32_94 c512_i32_95
  v146
def k0_mult14 : BitVec 32 :=
  let c5_i32_101 : BitVec 32 := 5#32
  let c512_i32_102 : BitVec 32 := 512#32
  let v157 : BitVec 32 := Scalar.muli c5_i32_101 c512_i32_102
  v157
def k0_mult15 : BitVec 32 :=
  let c6_i32_108 : BitVec 32 := 6#32
  let c512_i32_109 : BitVec 32 := 512#32
  let v168 : BitVec 32 := Scalar.muli c6_i32_108 c512_i32_109
  v168
def k0_mult16 : BitVec 32 :=
  let c7_i32_115 : BitVec 32 := 7#32
  let c512_i32_116 : BitVec 32 := 512#32
  let v179 : BitVec 32 := Scalar.muli c7_i32_115 c512_i32_116
  v179
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S1x512x512 : 0 < S1x512x512.numel
  shapeCasts_S1x512x512_S512x512 : S1x512x512.ShapeCasts S512x512
  bitsLt_bf16_f32 : FTy.bits .bf16 < FTy.bits .f32
  shapeCasts_S512x512_S1x512x512 : S512x512.ShapeCasts S1x512x512
  dot_S512x512_S512x512_S512x512_0_0_1_1_n_n_wf : DotDims.WF S512x512 S512x512 S512x512 [0] [0] [1] [1] [] []
  dot_S512x512_S512x512_S512x512_1_0_0_1_n_n_wf : DotDims.WF S512x512 S512x512 S512x512 [1] [0] [0] [1] [] []
  hrank0 : 0 < grid0.rank
  k0_mult1_dvd : 512 ∣ k0_mult1.toNat
  k0_off1_inb : ∀ (r : Fin 8), ∀ a, (k0_off1 (BitVec.ofNat 32 r.val)) a + S1x512x512.size a ≤ S1x4096x512.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  k0_mult9_dvd : 512 ∣ k0_mult9.toNat
  k0_mult10_dvd : 512 ∣ k0_mult10.toNat
  k0_mult11_dvd : 512 ∣ k0_mult11.toNat
  k0_mult12_dvd : 512 ∣ k0_mult12.toNat
  k0_mult13_dvd : 512 ∣ k0_mult13.toNat
  k0_mult14_dvd : 512 ∣ k0_mult14.toNat
  k0_mult15_dvd : 512 ∣ k0_mult15.toNat
  k0_mult16_dvd : 512 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S8x4096x512.size a
  hwx0_0 : ∀ i : grid0.Coords, EltTy.bits .f32 = 32 ∨ (Rect.block (s := S8x4096x512) S1x4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S8x4096x512.size a
  hwx0_1 : ∀ i : grid0.Coords, EltTy.bits .f32 = 32 ∨ (Rect.block (s := S8x4096x512) S1x4096x512.size (cc0_transform_1 i) (hinb0_1 i)).WholeWords (EltTy.packing .f32)

variable [Facts₀]

def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x512x512 : Shape := ⟨3, ![8, 512, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x512x512, .f32⟩
  | .hbm, ⟨2, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]

class Facts₀ : Prop where
  dot_S8x4096x512_S8x4096x512_S8x512x512_1_1_2_2_0_0_wf : DotDims.WF S8x4096x512 S8x4096x512 S8x512x512 [1] [1] [2] [2] [0] [0]
  dot_S8x4096x512_S8x512x512_S8x4096x512_2_1_1_2_0_0_wf : DotDims.WF S8x4096x512 S8x512x512 S8x4096x512 [2] [1] [1] [2] [0] [0]

variable [Facts₀]

def dot_S8x4096x512_S8x4096x512_S8x512x512_1_1_2_2_0_0 : DotDims S8x4096x512 S8x4096x512 S8x512x512 where
  lhsContracting := [1]
  rhsContracting := [1]
  lhsNonContracting := [2]
  rhsNonContracting := [2]
  lhsBatch := [0]
  rhsBatch := [0]
  wf := dot_S8x4096x512_S8x4096x512_S8x512x512_1_1_2_2_0_0_wf
def dot_S8x4096x512_S8x512x512_S8x4096x512_2_1_1_2_0_0 : DotDims S8x4096x512 S8x512x512 S8x4096x512 where
  lhsContracting := [2]
  rhsContracting := [1]
  lhsNonContracting := [1]
  rhsNonContracting := [2]
  lhsBatch := [0]
  rhsBatch := [0]
  wf := dot_S8x4096x512_S8x512x512_S8x4096x512_2_1_1_2_0_0_wf

class Facts : Prop extends Facts₀ where

variable [Facts]
-- ==== Proof.LibReadCov.lean ====
/-
  A read-back of a whole buffer after a store of the whole buffer.

  A buffer is written by a list of stores, the last store first.  When the last store wrote the WHOLE buffer (a
  unit-stride rectangle at zero offsets of the buffer's own sizes), a load of the whole buffer afterwards reads that
  store's payload, whatever the earlier stores left: the last store covers every index.  This is the form met by an
  accumulator kept in a scratch buffer that is stored whole, read back whole, updated and stored whole again, any
  number of times.
-/
import Idealize.ShloMosaic.Lib.Pipeline.Value

noncomputable section

open Idealize.ShloMosaic

namespace Cert.LibReadCov

/-- After the stores `⟨whole, w⟩ :: L` (the whole-buffer store of `w` last, over any earlier stores `L`), a load of
    the whole buffer reads `w`.  The zero offsets may be spelt in any way (`h`). -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.LibReadCov

end
-- ==== Proof.KernelPieces.lean ====
/-
  What one grid point leaves in its output block, as eight row chunks over one Gram matrix.

  A grid point handles one batch: its input block `x0` is the [1, 4096, 512] slab `X` of that batch.  The body first
  builds the Gram matrix `XᵀX` in a scratch buffer: it stores zero, then for each of the eight consecutive chunks of
  512 rows it reads the buffer back, adds `chunkᵀ · chunk`, and stores the sum again.  Then, for each chunk again, it
  stores `chunk · gram` into the matching 512 rows of the output block.

  This module names the three operations (the zero Gram matrix, one accumulation step, one output chunk) once, shows
  that every stored payload of the body is one of them and, since a read-back of the scratch buffer after a
  whole-buffer store returns that store's payload whatever was stored earlier, that the output block is the overlay of
  eight pieces: rows `o … o + 511` hold the output chunk of those rows of `x0` and of the accumulated Gram matrix.
  Nothing here depends on what a float is.
-/
import proofs.«146196_j64123861729632_2_alg».proof.Proof.Gen.KernelIdeal.Frame
import proofs.«146196_j64123861729632_2_alg».proof.Proof.LibReadCov
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]

theorem hz2 : (![0, 0] : Fin 2 → Nat) = fun _ => 0 := funext fun a => by fin_cases a <;> rfl

/-- Rows `o … o + 511` lie inside the 4096 rows of a block. -/
theorem rows_inb (o : Nat) (ho : o + 512 ≤ 4096) :
    ∀ a : Fin S1x4096x512.rank, (![0, o, 0] : Fin 3 → Nat) a + S1x512x512.size a ≤ S1x4096x512.size a := by
  intro a
  match a with
  | ⟨0, _⟩ => show 0 + 1 ≤ 1; omega
  | ⟨1, _⟩ => show o + 512 ≤ 4096; exact ho
  | ⟨2, _⟩ => show 0 + 512 ≤ 512; omega

/-- The rectangle of rows `o … o + 511` of a block, all 512 columns. -/
abbrev rowsRect (o : Nat) (ho : o + 512 ≤ 4096) : Rect S1x4096x512 :=
  Rect.unit (s := S1x4096x512) ![0, o, 0] S1x512x512.size (rows_inb o ho)

/-- Rows `o … o + 511` of the block `x0`, as a [1, 512, 512] chunk. -/
def rows (x0 : Vec F S1x4096x512 .f32) (o : Nat) (ho : o + 512 ≤ 4096) : Vec F S1x512x512 .f32 :=
  View.ld x0 (rowsRect o ho)

/-- The zero Gram matrix the body starts from. -/
def gram0 : FVec F S512x512 .f32 := k0_pay4

/-- One accumulation step: the Gram matrix so far plus `chunkᵀ · chunk`. -/
def gstep (xc : Vec F S1x512x512 .f32) (acc : Vec F S512x512 .f32) : FVec F S512x512 .f32 := k0_pay5 xc acc

/-- One output chunk: `chunk · gram`, as a [1, 512, 512] piece. -/
def ochunk (g : Vec F S512x512 .f32) (xc : Vec F S1x512x512 .f32) : FVec F S1x512x512 .f32 := k0_pay15 g xc

/-! Every stored payload of the body is one of the three operations. -/

theorem pay4_eq : (k0_pay4 : FVec F S512x512 .f32) = gram0 := rfl
theorem pay5_eq (xc : Vec F S1x512x512 .f32) (acc : Vec F S512x512 .f32) : k0_pay5 xc acc = gstep xc acc := rfl
theorem pay6_eq (xc : Vec F S1x512x512 .f32) (acc : Vec F S512x512 .f32) : k0_pay6 xc acc = gstep xc acc := rfl
theorem pay7_eq (xc : Vec F S1x512x512 .f32) (acc : Vec F S512x512 .f32) : k0_pay7 xc acc = gstep xc acc := rfl
theorem pay8_eq (xc : Vec F S1x512x512 .f32) (acc : Vec F S512x512 .f32) : k0_pay8 xc acc = gstep xc acc := rfl
theorem pay9_eq (xc : Vec F S1x512x512 .f32) (acc : Vec F S512x512 .f32) : k0_pay9 xc acc = gstep xc acc := rfl
theorem pay10_eq (xc : Vec F S1x512x512 .f32) (acc : Vec F S512x512 .f32) : k0_pay10 xc acc = gstep xc acc := rfl
theorem pay11_eq (xc : Vec F S1x512x512 .f32) (acc : Vec F S512x512 .f32) : k0_pay11 xc acc = gstep xc acc := rfl
theorem pay13_eq (xc : Vec F S1x512x512 .f32) (acc : Vec F S512x512 .f32) :
    k0_pay13 (k0_pay12 xc acc) = gstep xc acc := rfl

theorem pay15_eq (g : Vec F S512x512 .f32) (xc : Vec F S1x512x512 .f32) : k0_pay15 g xc = ochunk g xc := rfl
theorem pay16_eq (g : Vec F S512x512 .f32) (xc : Vec F S1x512x512 .f32) : k0_pay16 g xc = ochunk g xc := rfl
theorem pay18_eq (g : Vec F S512x512 .f32) (xc : Vec F S1x512x512 .f32) :
    k0_pay18 (k0_pay17 g xc) = ochunk g xc := rfl
theorem pay19_eq (g : Vec F S512x512 .f32) (xc : Vec F S1x512x512 .f32) :
    k0_pay19 (k0_pay14 g) xc = ochunk g xc := rfl
theorem pay20_eq (g : Vec F S512x512 .f32) (xc : Vec F S1x512x512 .f32) :
    k0_pay20 (k0_pay14 g) xc = ochunk g xc := rfl
theorem pay1_eq (g : Vec F S512x512 .f32) (xc : Vec F S1x512x512 .f32) :
    k0_pay1 (k0_pay21 (k0_pay14 g) xc) = ochunk g xc := rfl
theorem pay2_eq (g : Vec F S512x512 .f32) (xc : Vec F S1x512x512 .f32) :
    k0_pay2 (k0_pay14 g) xc = ochunk g xc := rfl
theorem pay3_eq (g : Vec F S512x512 .f32) (xc : Vec F S1x512x512 .f32) :
    k0_pay3 (k0_pay14 g) xc = ochunk g xc := rfl

/-- The Gram matrix the body accumulates: the zero matrix, then the eight chunks' steps, first chunk first. -/
def gramK (x0 : Vec F S1x4096x512 .f32) : FVec F S512x512 .f32 :=
  gstep (rows x0 3584 (by omega)) (gstep (rows x0 3072 (by omega)) (gstep (rows x0 2560 (by omega))
    (gstep (rows x0 2048 (by omega)) (gstep (rows x0 1536 (by omega)) (gstep (rows x0 1024 (by omega))
      (gstep (rows x0 512 (by omega)) (gstep (rows x0 0 (by omega)) gram0)))))))

/-- The piece the body stores on rows `o … o + 511` of the output block. -/
def piece (x0 : Vec F S1x4096x512 .f32) (o : Nat) (ho : o + 512 ≤ 4096) : View.Piece (Elt F) S1x4096x512 .f32 :=
  ⟨rowsRect o ho, ochunk (gramK x0) (rows x0 o ho)⟩

/-- The eight pieces, last stored first. -/
def pieces (x0 : Vec F S1x4096x512 .f32) : List (View.Piece (Elt F) S1x4096x512 .f32) :=
  [piece x0 3584 (by omega), piece x0 3072 (by omega), piece x0 2560 (by omega), piece x0 2048 (by omega),
   piece x0 1536 (by omega), piece x0 1024 (by omega), piece x0 512 (by omega), piece x0 0 (by omega)]

/-- The output block one grid point leaves is the overlay of the eight pieces. -/
theorem out_eq_canon (c : Dev nD) (i : grid0.Coords) (a1 : Memref sig .tc .vmem S1x4096x512 .f32) (h1 : a1.IsWhole)
    (a2 : Memref sig .tc .vmem S1x4096x512 .f32) (h2 : a2.IsWhole) (a3 : Memref sig .tc .vmem S512x512 .f32)
    (h3 : a3.IsWhole) (x0 : Vec F S1x4096x512 .f32) :
    out0_A_1 c i a1 h1 a2 h2 a3 h3 x0 = View.canon (pieces x0) := by
  unfold out0_A_1
  rw [View.read_writes_eq_canon _ _ _ (cover0_A_1 c i a1 h1 a2 h2 a3 h3 x0)]
  unfold kernelRun0_A
  dsimp only
  sl_unfold_words
  simp only [Cert.LibReadCov.readCov_cons_unit_zero (S := S512x512) _ hz2, View.readAt_eq_ld, h1.read_unread,
    pay4_eq, pay5_eq, pay6_eq, pay7_eq, pay8_eq, pay9_eq, pay10_eq, pay11_eq, pay13_eq,
    pay15_eq, pay16_eq, pay18_eq, pay19_eq, pay20_eq, pay1_eq, pay2_eq, pay3_eq]
  rfl

end Cert.KernelIdeal.Block

end
-- ==== Proof.KernelBlockValue.lean ====
/-
  The three operations of one grid point, read entry by entry over the extended reals.

  At exact arithmetic a change of float format is the identity and a matrix product into a zero accumulator is the
  plain sum of products.  So, for a [1, 512, 512] chunk `xc` of rows and a [512, 512] matrix `g`:

    * one accumulation step adds, at entry (d, e), the sum over the chunk's rows r of  xc[r, d] · xc[r, e];
    * one output chunk holds, at row r and column e, the sum over d of  xc[r, d] · g[d, e].

  A [1, 512, 512] chunk viewed as a [512, 512] matrix reads entry (r, d) at (0, r, d), and back; rows
  `o … o + 511` of a block read row r at row o + r of the block.
-/
import proofs.«146196_j64123861729632_2_alg».proof.Proof.KernelPieces
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem

namespace Cert.KernelIdeal.Block

open Cert.KernelIdeal Cert.KernelIdeal.Gen Idealize.ShloMosaic.ValueIdx

/-- Row `r` of rows `o … o + 511` of a block is row `o + r` of the block. -/
theorem rows_apply (x0 : Vec Ideal S1x4096x512 .f32) (o : Nat) (ho : o + 512 ≤ 4096) (r d : Fin 512) :
    rows x0 o ho (ix3 (0 : Fin 1) r d) = x0 (ix3 (0 : Fin 1) (⟨o + r.val, by omega⟩ : Fin 4096) d) := by
  unfold rows
  show x0 ((rowsRect o ho).idx (ix3 (0 : Fin 1) r d)) = _
  refine congrArg x0 (funext fun a => Fin.ext ?_)
  match a with
  | ⟨0, _⟩ => show 0 + 1 * 0 = 0; rfl
  | ⟨1, _⟩ => show o + 1 * r.val = o + r.val; omega
  | ⟨2, _⟩ => show 0 + 1 * d.val = d.val; omega

/-- A [1, 512, 512] chunk viewed as a [512, 512] matrix reads entry (r, d) at (0, r, d). -/
theorem dropUnit_apply {α : Type} (xc : S1x512x512.Idx → α) (h : S1x512x512.ShapeCasts S512x512) (r d : Fin 512) :
    shapeCast S512x512 xc h (ix2 r d) = xc (ix3 (0 : Fin 1) r d) := by
  refine (shapeCast_dropUnit_apply ![512, 512] xc h (ix2 r d)).trans (congrArg xc (funext fun a => ?_))
  match a with
  | ⟨0, _⟩ => rfl
  | ⟨1, _⟩ => rfl
  | ⟨2, _⟩ => rfl

/-- A [512, 512] matrix stored as a [1, 512, 512] chunk reads (0, r, e) at entry (r, e). -/
theorem addUnit_apply {α : Type} (v : S512x512.Idx → α) (h : S512x512.ShapeCasts S1x512x512) (r e : Fin 512) :
    shapeCast S1x512x512 v h (ix3 (0 : Fin 1) r e) = v (ix2 r e) := by
  refine (shapeCast_addUnit_apply ![512, 512] v h (ix3 (0 : Fin 1) r e)).trans (congrArg v (funext fun a => ?_))
  match a with
  | ⟨0, _⟩ => rfl
  | ⟨1, _⟩ => rfl

/-! ### The product that contracts the ROWS of both operands:  (lᵀ · r)[d, e] = Σ_k l[k, d] · r[k, e] -/

theorem lhsT_0 (i : S512x512.Idx) (q : dot_S512x512_S512x512_S512x512_0_0_1_1_n_n.contr.Idx) :
    (dot_S512x512_S512x512_S512x512_0_0_1_1_n_n.lhsIdx i q 0).val = (q ⟨0, by decide⟩).val :=
  dot_S512x512_S512x512_S512x512_0_0_1_1_n_n.lhsIdx_val_of_single rfl i q
theorem lhsT_1 (i : S512x512.Idx) (q : dot_S512x512_S512x512_S512x512_0_0_1_1_n_n.contr.Idx) :
    (dot_S512x512_S512x512_S512x512_0_0_1_1_n_n.lhsIdx i q 1).val = (i 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
theorem rhsT_0 (i : S512x512.Idx) (q : dot_S512x512_S512x512_S512x512_0_0_1_1_n_n.contr.Idx) :
    (dot_S512x512_S512x512_S512x512_0_0_1_1_n_n.rhsIdx i q 0).val = (q ⟨0, by decide⟩).val :=
  dot_S512x512_S512x512_S512x512_0_0_1_1_n_n.rhsIdx_val_of_single rfl i q
theorem rhsT_1 (i : S512x512.Idx) (q : dot_S512x512_S512x512_S512x512_0_0_1_1_n_n.contr.Idx) :
    (dot_S512x512_S512x512_S512x512_0_0_1_1_n_n.rhsIdx i q 1).val = (i 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

theorem matmulT_apply (l r : FVec Ideal S512x512 .bf16) (d e : Fin 512) :
    matmul dot_S512x512_S512x512_S512x512_0_0_1_1_n_n none l r (constant S512x512 .f32 0x00000000#32) (ix2 d e)
      = ∑ k : Fin 512, l (ix2 k d) * r (ix2 k e) := by
  simp only [matmul]
  rw [Ideal.matmul_constant_zero_apply, ← Equiv.sum_comp (contrEquiv1 dot_S512x512_S512x512_S512x512_0_0_1_1_n_n 512 rfl rfl).symm]
  refine Finset.sum_congr rfl fun k _ => ?_
  have hk := contrEquiv1_symm_val dot_S512x512_S512x512_S512x512_0_0_1_1_n_n 512 rfl rfl k
  have el : dot_S512x512_S512x512_S512x512_0_0_1_1_n_n.lhsIdx (ix2 d e) ((contrEquiv1 dot_S512x512_S512x512_S512x512_0_0_1_1_n_n 512 rfl rfl).symm k) = ix2 k d := funext fun a => Fin.ext (by
    match a with
    | ⟨0, _⟩ => exact (lhsT_0 _ _).trans hk
    | ⟨1, _⟩ => exact lhsT_1 _ _)
  have er : dot_S512x512_S512x512_S512x512_0_0_1_1_n_n.rhsIdx (ix2 d e) ((contrEquiv1 dot_S512x512_S512x512_S512x512_0_0_1_1_n_n 512 rfl rfl).symm k) = ix2 k e := funext fun a => Fin.ext (by
    match a with
    | ⟨0, _⟩ => exact (rhsT_0 _ _).trans hk
    | ⟨1, _⟩ => exact rhsT_1 _ _)
  rw [el, er]

/-! ### The plain product:  (l · r)[s, e] = Σ_k l[s, k] · r[k, e] -/

theorem lhsP_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhsP_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhsP_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhsP_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

theorem matmulP_apply (l r : FVec Ideal S512x512 .bf16) (s e : Fin 512) :
    matmul dot_S512x512_S512x512_S512x512_1_0_0_1_n_n none l r (constant S512x512 .f32 0x00000000#32) (ix2 s e)
      = ∑ k : Fin 512, l (ix2 s k) * r (ix2 k e) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 s e) ((contrEquiv1 dot_S512x512_S512x512_S512x512_1_0_0_1_n_n 512 rfl rfl).symm k) = ix2 s k := funext fun a => Fin.ext (by
    match a with
    | ⟨0, _⟩ => exact lhsP_0 _ _
    | ⟨1, _⟩ => exact (lhsP_1 _ _).trans hk)
  have er : dot_S512x512_S512x512_S512x512_1_0_0_1_n_n.rhsIdx (ix2 s e) ((contrEquiv1 dot_S512x512_S512x512_S512x512_1_0_0_1_n_n 512 rfl rfl).symm k) = ix2 k e := funext fun a => Fin.ext (by
    match a with
    | ⟨0, _⟩ => exact (rhsP_0 _ _).trans hk
    | ⟨1, _⟩ => exact rhsP_1 _ _)
  rw [el, er]

/-! ### The three operations at an entry -/

/-- The zero Gram matrix is zero at every entry. -/
theorem gram0_apply (d e : Fin 512) : (gram0 : FVec Ideal S512x512 .f32) (ix2 d e) = 0 := by
  unfold gram0 k0_pay4
  refine (congrFun (shapeCast_self _ _) (ix2 d e)).trans ?_
  show Ideal.ofBits .f32 0x00000000#32 = 0
  exact Ideal.ofBits_zero_f32

/-- One accumulation step adds, at entry (d, e), the sum over the chunk's rows of the products of their entries in
    columns d and e. -/
theorem gstep_apply (xc : Vec Ideal S1x512x512 .f32) (acc : Vec Ideal S512x512 .f32) (d e : Fin 512) :
    gstep xc acc (ix2 d e) = acc (ix2 d e) + ∑ r : Fin 512, xc (ix3 (0 : Fin 1) r d) * xc (ix3 (0 : Fin 1) r e) := by
  unfold gstep k0_pay5
  refine (congrFun (shapeCast_self _ _) (ix2 d e)).trans ?_
  refine congrArg (acc (ix2 d e) + ·) ?_
  refine (matmulT_apply _ _ d e).trans ?_
  refine Finset.sum_congr rfl fun r _ => ?_
  show shapeCast S512x512 xc _ (ix2 r d) * shapeCast S512x512 xc _ (ix2 r e) = _
  rw [dropUnit_apply, dropUnit_apply]

/-- One output chunk holds, at row r and column e, the sum over d of the chunk's entry (r, d) times the matrix's
    entry (d, e). -/
theorem ochunk_apply (g : Vec Ideal S512x512 .f32) (xc : Vec Ideal S1x512x512 .f32) (r e : Fin 512) :
    ochunk g xc (ix3 (0 : Fin 1) r e) = ∑ d : Fin 512, xc (ix3 (0 : Fin 1) r d) * g (ix2 d e) := by
  unfold ochunk k0_pay15 k0_pay14
  refine (addUnit_apply _ _ r e).trans ?_
  refine (matmulP_apply _ _ r e).trans ?_
  refine Finset.sum_congr rfl fun d _ => ?_
  show shapeCast S512x512 xc _ (ix2 r d) * g (ix2 d e) = _
  rw [dropUnit_apply]

end Cert.KernelIdeal.Block

end
-- ==== Proof.ChunkSum.lean ====
/-
  Sums over the 4096 rows of one batch, regrouped as eight consecutive chunks of 512 rows.

  The row index `s : Fin 4096` is written `s = 512 * c + r` with `c : Fin 8` the chunk and `r : Fin 512` the row
  inside the chunk.  In any commutative additive monoid (in particular on the extended reals, where no finiteness is
  needed: only associativity and commutativity of `+` are used) the sum over all rows is the sum over the chunks of
  the sums inside each chunk.
-/
import Idealize.ShloMosaic.Lib.ValueIdx

namespace Cert.GramChunks

/-- Row `512 * c + r` of the 4096 rows: row `r` of chunk `c`. -/
def row (c : Fin 8) (r : Fin 512) : Fin 4096 := ⟨512 * c.val + r.val, by omega⟩

@[simp] theorem row_val (c : Fin 8) (r : Fin 512) : (row c r).val = 512 * c.val + r.val := rfl

/-- A sum over the 4096 rows is the sum over the eight chunks of the sums over each chunk's 512 rows. -/
theorem sum_rows_eq_sum_chunks {M : Type*} [AddCommMonoid M] (f : Fin 4096 → M) :
    ∑ s : Fin 4096, f s = ∑ c : Fin 8, ∑ r : Fin 512, f (row c r) := by
  have h := (Equiv.sum_comp (finProdFinEquiv (m := 8) (n := 512)) f).symm
  rw [show (∑ s : Fin 4096, f s) = ∑ s : Fin (8 * 512), f s from rfl, h, Fintype.sum_prod_type]
  refine Finset.sum_congr rfl fun c _ => Finset.sum_congr rfl fun r _ => congrArg f (Fin.ext ?_)
  simp [finProdFinEquiv, row]
  omega

end Cert.GramChunks
-- ==== Proof.KernelBlockSpec.lean ====
/-
  One grid point's output block is the block's own self-attention:  out[s, e] = Σ_d x[s, d] · (Σ_s' x[s', d] · x[s', e]).

  The body accumulates the Gram matrix chunk by chunk: zero, plus the eight chunks' sums of products, added first chunk
  first.  Over the extended reals that ordered chain is the sum over all 4096 rows (addition is associative and
  commutative there; nothing else is used, so no finiteness is needed).  Each of the eight stored pieces is then the
  restriction, to its 512 rows, of ONE function of the block index, and the eight row ranges cover the block: so the
  overlay of the pieces is that function.
-/
import proofs.«146196_j64123861729632_2_alg».proof.Proof.KernelBlockValue
import proofs.«146196_j64123861729632_2_alg».proof.Proof.ChunkSum

noncomputable section

open Idealize.ShloMosaic Idealize.ShloMosaic.TcCoe Idealize.SL.Sem

namespace Cert.KernelIdeal.Block

open Cert.KernelIdeal Cert.KernelIdeal.Gen Idealize.ShloMosaic.ValueIdx

/-- The Gram matrix of a block: entry (d, e) is the sum over all rows of the products of columns d and e. -/
def blockGram (x0 : Vec Ideal S1x4096x512 .f32) (d e : Fin 512) : EReal :=
  ∑ s : Fin 4096, x0 (ix3 (0 : Fin 1) s d) * x0 (ix3 (0 : Fin 1) s e)

/-- The block's self-attention at row s, column e. -/
def blockSpecAt (x0 : Vec Ideal S1x4096x512 .f32) (s : Fin 4096) (e : Fin 512) : EReal :=
  ∑ d : Fin 512, x0 (ix3 (0 : Fin 1) s d) * blockGram x0 d e

/-- The block's self-attention, as contents of a [1, 4096, 512] block. -/
def blockSpec (x0 : Vec Ideal S1x4096x512 .f32) : Vec Ideal S1x4096x512 .f32 :=
  fun y => blockSpecAt x0 (y 1) (y 2)

theorem blockSpec_ix3 (x0 : Vec Ideal S1x4096x512 .f32) (s : Fin 4096) (e : Fin 512) :
    blockSpec x0 (ix3 (0 : Fin 1) s e) = blockSpecAt x0 s e := rfl

/-- The accumulated Gram matrix is the block's Gram matrix: the chain  0 + S₀ + S₁ + … + S₇  of the chunks' sums is
    the sum over all rows. -/
theorem gramK_apply (x0 : Vec Ideal S1x4096x512 .f32) (d e : Fin 512) :
    gramK x0 (ix2 d e) = blockGram x0 d e := by
  unfold gramK blockGram
  simp only [gstep_apply, gram0_apply, rows_apply, zero_add]
  rw [Cert.GramChunks.sum_rows_eq_sum_chunks (fun s => x0 (ix3 (0 : Fin 1) s d) * x0 (ix3 (0 : Fin 1) s e)),
    Fin.sum_univ_eight]
  rfl

/-- Row r, column e of rows `o … o + 511` sits at row o + r, column e of the block. -/
theorem emb_rows (o : Nat) (ho : o + 512 ≤ 4096) (r e : Fin 512) :
    (rowsRect o ho).emb (ix3 (0 : Fin 1) r e) = ix3 (0 : Fin 1) (⟨o + r.val, by omega⟩ : Fin 4096) e := by
  refine funext fun a => Fin.ext ?_
  match a with
  | ⟨0, _⟩ => show 0 + 1 * 0 = 0; rfl
  | ⟨1, _⟩ => show o + 1 * r.val = o + r.val; omega
  | ⟨2, _⟩ => show 0 + 1 * e.val = e.val; omega

/-- The piece stored on rows `o … o + 511` is the block's self-attention restricted to those rows. -/
theorem piece_apply (x0 : Vec Ideal S1x4096x512 .f32) (o : Nat) (ho : o + 512 ≤ 4096) (x : S1x512x512.Idx) :
    ochunk (gramK x0) (rows x0 o ho) x = blockSpec x0 ((rowsRect o ho).emb x) := by
  obtain ⟨z, r, e, rfl⟩ : ∃ (z : Fin 1) (r e : Fin 512), x = ix3 z r e := ⟨x 0, x 1, x 2, eq_ix3 x⟩
  obtain rfl : z = 0 := Subsingleton.elim _ _
  rw [ochunk_apply, emb_rows, blockSpec_ix3]
  unfold blockSpecAt
  simp only [rows_apply, gramK_apply]

/-- An index whose row lies in `o … o + 511` is under that piece. -/
theorem mem_rows (y : S1x4096x512.Idx) (o : Nat) (ho : o + 512 ≤ 4096) (hlo : o ≤ (y 1).val) (hhi : (y 1).val < o + 512) :
    y ∈ (rowsRect o ho).set := by
  rw [Rect.mem_set_unit]
  intro a
  have h0 : (y 0).val < 1 := (y 0).isLt
  have h2 : (y 2).val < 512 := (y 2).isLt
  match a with
  | ⟨0, _⟩ => show 0 ≤ (y 0).val ∧ (y 0).val < 0 + 1; omega
  | ⟨1, _⟩ => show o ≤ (y 1).val ∧ (y 1).val < o + 512; omega
  | ⟨2, _⟩ => show 0 ≤ (y 2).val ∧ (y 2).val < 0 + 512; omega

/-- What one grid point leaves in its output block, at exact arithmetic: the self-attention of its input block. -/
theorem out_eq (c : Dev nD) (i : grid0.Coords) (a1 : Memref sig .tc .vmem S1x4096x512 .f32) (h1 : a1.IsWhole)
    (a2 : Memref sig .tc .vmem S1x4096x512 .f32) (h2 : a2.IsWhole) (a3 : Memref sig .tc .vmem S512x512 .f32)
    (h3 : a3.IsWhole) (x0 : Vec Ideal S1x4096x512 .f32) :
    out0_A_1 c i a1 h1 a2 h2 a3 h3 x0 = blockSpec x0 := by
  rw [out_eq_canon]
  funext y
  refine View.canon_apply_of_pieces (blockSpec x0) (pieces x0) ?_ y ?_
  · intro p hp x
    simp only [pieces, List.mem_cons, List.not_mem_nil, or_false] at hp
    rcases hp with rfl | rfl | rfl | rfl | rfl | rfl | rfl | rfl <;> exact piece_apply x0 _ _ x
  · have hs : (y 1).val < 4096 := (y 1).isLt
    by_cases c7 : 3584 ≤ (y 1).val
    · exact ⟨piece x0 3584 (by omega), by simp only [pieces, List.mem_cons, true_or, or_true], mem_rows y 3584 (by omega) c7 (by omega)⟩
    by_cases c6 : 3072 ≤ (y 1).val
    · exact ⟨piece x0 3072 (by omega), by simp only [pieces, List.mem_cons, true_or, or_true], mem_rows y 3072 (by omega) c6 (by omega)⟩
    by_cases c5 : 2560 ≤ (y 1).val
    · exact ⟨piece x0 2560 (by omega), by simp only [pieces, List.mem_cons, true_or, or_true], mem_rows y 2560 (by omega) c5 (by omega)⟩
    by_cases c4 : 2048 ≤ (y 1).val
    · exact ⟨piece x0 2048 (by omega), by simp only [pieces, List.mem_cons, true_or, or_true], mem_rows y 2048 (by omega) c4 (by omega)⟩
    by_cases c3 : 1536 ≤ (y 1).val
    · exact ⟨piece x0 1536 (by omega), by simp only [pieces, List.mem_cons, true_or, or_true], mem_rows y 1536 (by omega) c3 (by omega)⟩
    by_cases c2 : 1024 ≤ (y 1).val
    · exact ⟨piece x0 1024 (by omega), by simp only [pieces, List.mem_cons, true_or, or_true], mem_rows y 1024 (by omega) c2 (by omega)⟩
    by_cases c1 : 512 ≤ (y 1).val
    · exact ⟨piece x0 512 (by omega), by simp only [pieces, List.mem_cons, true_or, or_true], mem_rows y 512 (by omega) c1 (by omega)⟩
    · exact ⟨piece x0 0 (by omega), by simp only [pieces, List.mem_cons, true_or, or_true], mem_rows y 0 (by omega) (by omega) (by omega)⟩

end Cert.KernelIdeal.Block

end
-- ==== Proof.Spec.lean ====
/-
  The function both programs compute: unnormalized self-attention, batch by batch.

  For an array X of shape [8, 4096, 512] (batch b, row s, column d), the Gram matrix of batch b is
      gram[b, d, e] = Σ_s X[b, s, d] · X[b, s, e]
  and the result is
      out[b, s, e] = Σ_d X[b, s, d] · gram[b, d, e].
  Stated over the extended reals, entry by entry, with every coordinate of a literal finite type.
-/
import Idealize.ShloMosaic.Lib.ValueIdx

noncomputable section

namespace Cert.SelfAttention

open Idealize.ShloMosaic Idealize.ShloMosaic.ValueIdx

/-- The argument's and the result's shape. -/
abbrev SX : Shape := ⟨3, ![8, 4096, 512]⟩

/-- Entry (d, e) of batch b's Gram matrix. -/
def gramAt (X : SX.Idx → EReal) (b : Fin 8) (d e : Fin 512) : EReal :=
  ∑ s : Fin 4096, X (ix3 b s d) * X (ix3 b s e)

/-- The result at batch b, row s, column e. -/
def specAt (X : SX.Idx → EReal) (b : Fin 8) (s : Fin 4096) (e : Fin 512) : EReal :=
  ∑ d : Fin 512, X (ix3 b s d) * gramAt X b d e

/-- The result array. -/
def spec (X : SX.Idx → EReal) : SX.Idx → EReal := fun i => specAt X (i 0) (i 1) (i 2)

theorem spec_ix3 (X : SX.Idx → EReal) (b : Fin 8) (s : Fin 4096) (e : Fin 512) :
    spec X (ix3 b s e) = specAt X b s e := rfl

end Cert.SelfAttention

end
-- ==== Proof.KernelArray.lean ====
/-
  The kernel's result array is the specification of its argument.

  Grid point t handles batch t: its input block is the [1, 4096, 512] slab of the argument at batch t, and what it
  writes back goes to the same slab of the result.  A point leaves in its output block the self-attention of its
  input block, which is the specification of the whole argument restricted to that batch.  The eight slabs cover the
  result array, so after the run the array holds the specification everywhere.
-/
import proofs.«146196_j64123861729632_2_alg».proof.Proof.KernelBlockSpec
import proofs.«146196_j64123861729632_2_alg».proof.Proof.Gen.KernelIdeal.Value
import proofs.«146196_j64123861729632_2_alg».proof.Proof.Spec

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Block Idealize.ShloMosaic.ValueIdx Cert.SelfAttention

variable (m : (ℓ : Loc nD τ sig) → Buf (Elt Ideal) ℓ) (ρ : Dev nD → PrngReg)

/-- The two windows' index maps over the grid: both send point t to block (t', 0, 0) with the same t' ≤ 7. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 7 :=
  (by decide +kernel : ∀ t : Fin grid0.N, _)

/-- Every batch is some point's block. -/
theorem idx_onto : ∀ q : Fin 8, ∃ t : Fin cfg0.N, win0_1.index t = ![q.val, 0, 0] :=
  (by decide +kernel : ∀ q : Fin 8, ∃ t : Fin grid0.N, win0_1.index t = ![q.val, 0, 0])

/-- The input block of a point whose block index is (b, 0, 0) reads row s, column d at (b, s, d) of the argument. -/
theorem iblk_apply (c : Dev nD) (t : Fin cfg0.N) (b : Fin 8) (h0 : win0_0.index t (0 : Fin 3) = b.val)
    (h1 : win0_0.index t (1 : Fin 3) = 0) (h2 : win0_0.index t (2 : Fin 3) = 0) (s : Fin 4096) (d : Fin 512) :
    (iblk m c 0 t : Vec Ideal S1x4096x512 .f32) (ix3 (0 : Fin 1) s d) = V m c main_arg0 (ix3 b s d) := by
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 4096 + 1 * s.val = s.val; omega
  | ⟨2, _⟩ => show win0_0.index t (2 : Fin 3) * 512 + 1 * d.val = d.val; omega

/-- A block that reads (b, s, d) of X at (0, s, d) has, as its own self-attention, the specification of X at
    batch b. -/
theorem blockSpecAt_of_rows (x0 : Vec Ideal S1x4096x512 .f32) (X : SX.Idx → EReal) (b : Fin 8)
    (hx : ∀ (s : Fin 4096) (d : Fin 512), x0 (ix3 (0 : Fin 1) s d) = X (ix3 b s d)) (s : Fin 4096) (e : Fin 512) :
    blockSpecAt x0 s e = specAt X b s e := by
  unfold blockSpecAt blockGram specAt gramAt
  simp only [hx]

/-- What point t writes back is block t of the specification of the argument. -/
theorem flushed_eq (c : Dev nD) (t : Fin cfg0.N) :
    (dats m 0 c).flushed 1 t = ((cfg0.win 1).blk t).view.read (Elt Ideal) (spec (V m c main_arg0)) := by
  rw [Cert.KernelIdeal.Value.flushed1_A, out_eq]
  obtain ⟨e0, e1, e2, e3, e4, e5⟩ := idx_facts t
  funext j
  show blockSpecAt (iblk m c 0 t) (j 1) (j 2) = spec (V m c main_arg0) (((cfg0.win 1).blk t).view.emb j)
  have hj0 : (j 0).val < 1 := (j 0).isLt
  have hE : ((cfg0.win 1).blk t).view.emb j = ix3 (⟨win0_1.index t (0 : Fin 3), by omega⟩ : Fin 8) (j 1) (j 2) := by
    refine funext fun a => Fin.ext ?_
    match a with
    | ⟨0, _⟩ => show win0_1.index t (0 : Fin 3) * 1 + 1 * (j 0).val = win0_1.index t (0 : Fin 3); omega
    | ⟨1, _⟩ => show win0_1.index t (1 : Fin 3) * 4096 + 1 * (j 1).val = (j 1).val; omega
    | ⟨2, _⟩ => show win0_1.index t (2 : Fin 3) * 512 + 1 * (j 2).val = (j 2).val; omega
  rw [hE]
  exact blockSpecAt_of_rows (iblk m c 0 t) (V m c main_arg0) ⟨win0_1.index t (0 : Fin 3), by omega⟩
    (fun s d => iblk_apply m c t ⟨win0_1.index t (0 : Fin 3), by omega⟩ e0 e1 e2 s d) (j 1) (j 2)

/-- An index of the array is in point t's block iff each coordinate is in the block's range on its axis. -/
theorem mem_blk (t : Fin cfg0.N) (i : S8x4096x512.Idx) :
    i ∈ ((cfg0.win 1).blk t).view.set ↔ ∀ a : Fin 3, win0_1.index t a * S1x4096x512.size a ≤ (i a).val ∧ (i a).val < win0_1.index t a * S1x4096x512.size a + S1x4096x512.size a := by
  show i ∈ ((View.whole main_v0).slice (win0_1.rect t)).set ↔ _
  rw [View.set_slice_whole, Rect.mem_set_unit]
  exact Iff.rfl

/-- Every index of the result array is in the block of the point that handles its batch. -/
theorem cover (i : S8x4096x512.Idx) : ∃ t : Fin cfg0.N, (cfg0.win 1).flush t = true ∧ i ∈ ((cfg0.win 1).blk t).view.set := by
  have hi0 : (i 0).val < 8 := (i 0).isLt
  have hi1 : (i 1).val < 4096 := (i 1).isLt
  have hi2 : (i 2).val < 512 := (i 2).isLt
  obtain ⟨t, ht⟩ := idx_onto ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 4096 ≤ (i 1).val ∧ (i 1).val < win0_1.index t (1 : Fin 3) * 4096 + 4096; omega
  | ⟨2, _⟩ => show win0_1.index t (2 : Fin 3) * 512 ≤ (i 2).val ∧ (i 2).val < win0_1.index t (2 : Fin 3) * 512 + 512; omega

/-- After the run the result array holds the specification of the argument as the region finds it. -/
theorem final (c : Dev nD) : (dats m 0 c).arrAt 1 cfg0.N = spec (V m c main_arg0) :=
  (dats m 0 c).arrAt_eq_of_cover 1 (spec (V m c main_arg0)) (fun t _ => flushed_eq m c t) (cover)

/-- The kernel's run: every weakly fair execution terminates with the result array at the specification of the
    argument's launch contents, the argument unchanged. -/
theorem run : θ_run defs (onTc (τ := τ) (main (F := Ideal))) ⟨m, fun _ => 0, ρ⟩ fun r => ∀ c : Dev nD,
      r.2.mem ((c : Thread nD τ).loc main_v0) = spec (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Array

end
-- ==== Proof.RefSpec.lean ====
/-
  The reference computes the specification.

  The reference is two batched contractions: the first sums, over the rows s, the products X[b, s, d] · X[b, s, e]
  (the Gram matrix of each batch); the second sums, over d, X[b, s, d] times that Gram entry.  Read entry by entry
  these are the two sums of the specification; only the spelling of the indices differs.
-/
import proofs.«146196_j64123861729632_2_alg».proof.Proof.Gen.ReferenceIdeal.Read
import proofs.«146196_j64123861729632_2_alg».proof.Proof.Spec

noncomputable section

namespace Cert.ReferenceIdeal.RefValue

open Cert.ReferenceIdeal Cert.ReferenceIdeal.Gen Cert.ReferenceIdeal.Read Idealize.ShloMosaic
open Idealize.ShloMosaic.ValueIdx Cert.SelfAttention

/-- The reference's result, as a function of its argument, is the specification. -/
theorem val_eq_spec (X : (⟨S8x4096x512, .f32⟩ : BufTy).Contents (Elt Ideal)) :
    val_main_v1 (F := Ideal) X = spec X := by
  funext i
  obtain ⟨b, s, e, rfl⟩ : ∃ (b : Fin 8) (s : Fin 4096) (e : Fin 512), i = ix3 b s e := ⟨i 0, i 1, i 2, eq_ix3 i⟩
  rw [val_main_v1_apply, spec_ix3]
  unfold specAt gramAt
  refine Finset.sum_congr rfl fun k _ => ?_
  rw [val_main_v0_apply]
  have e1 : lidx_main_v1 (ix3 b s e) k = ix3 b s k := funext fun a => Fin.ext (by
    match a with
    | ⟨0, _⟩ => rfl
    | ⟨1, _⟩ => rfl
    | ⟨2, _⟩ => rfl)
  have e2 : ∀ k' : Fin 4096, lidx_main_v0 (ridx_main_v1 (ix3 b s e) k) k' = ix3 b k' k := fun k' => funext fun a => Fin.ext (by
    match a with
    | ⟨0, _⟩ => rfl
    | ⟨1, _⟩ => rfl
    | ⟨2, _⟩ => rfl)
  have e3 : ∀ k' : Fin 4096, ridx_main_v0 (ridx_main_v1 (ix3 b s e) k) k' = ix3 b k' e := fun k' => funext fun a => Fin.ext (by
    match a with
    | ⟨0, _⟩ => rfl
    | ⟨1, _⟩ => rfl
    | ⟨2, _⟩ => rfl)
  simp only [e1, e2, e3]

end Cert.ReferenceIdeal.RefValue

end
-- ==== Proof.lean ====
/-
  Unnormalized self-attention, batch by batch:  out[b] = X[b] · (X[b]ᵀ · X[b])  for X of shape [8, 4096, 512].

  The kernel handles one batch per grid point.  It accumulates the Gram matrix  X[b]ᵀ · X[b]  over eight consecutive
  chunks of 512 rows into a zeroed scratch matrix, then multiplies each chunk of rows by that matrix and stores the
  product on the chunk's rows of the output block.  The reference computes the Gram matrix of every batch by one
  batched contraction over all 4096 rows and the result by a second batched contraction.

  At exact arithmetic the changes of float format are identities and a matrix product into a zero accumulator is the
  plain sum of products, so both programs compute, at batch b, row s, column e,

      Σ_d X[b, s, d] · ( Σ_s' X[b, s', d] · X[b, s', e] ).

  The one law that joins them is that the kernel's ordered chain  0 + S₀ + S₁ + … + S₇  of the eight chunks' partial
  sums is the sum over all rows: associativity and commutativity of addition on the extended reals.  No product is
  distributed over a sum and nothing is cancelled, so the proof never uses that the inputs are finite.

  The modules:  ChunkSum (the regrouping of a sum over 4096 rows into 8 × 512);  Spec (the function above);
  KernelPieces (one grid point's output block as the overlay of eight stored pieces over one accumulated matrix);
  KernelBlockValue (the accumulation step and the output chunk read entry by entry);  KernelBlockSpec (the block a
  point leaves is the block's own self-attention);  KernelArray (the result array, slab by slab, is the
  specification);  RefSpec (the reference's two contractions are the specification).  The frames of the two kernel
  programs and the reference's run are the generated modules'; the idealized kernel is the kernel's own text.
-/
import proofs.«146196_j64123861729632_2_alg».proof.Defs
import proofs.«146196_j64123861729632_2_alg».proof.Proof.Gen.Kernel
import proofs.«146196_j64123861729632_2_alg».proof.Proof.Gen.Kernel.Skeleton
import proofs.«146196_j64123861729632_2_alg».proof.Proof.Gen.Kernel.Launch
import proofs.«146196_j64123861729632_2_alg».proof.Proof.Gen.Kernel.Points
import proofs.«146196_j64123861729632_2_alg».proof.Proof.Gen.Kernel.Frame
import proofs.«146196_j64123861729632_2_alg».proof.Proof.Gen.KernelIdeal
import proofs.«146196_j64123861729632_2_alg».proof.Proof.Gen.KernelIdeal.Skeleton
import proofs.«146196_j64123861729632_2_alg».proof.Proof.Gen.KernelIdeal.Launch
import proofs.«146196_j64123861729632_2_alg».proof.Proof.Gen.KernelIdeal.Points
import proofs.«146196_j64123861729632_2_alg».proof.Proof.Gen.KernelIdeal.Frame
import proofs.«146196_j64123861729632_2_alg».proof.Proof.Gen.ReferenceIdeal
import proofs.«146196_j64123861729632_2_alg».proof.Proof.Gen.Pre_finite_inputs
import proofs.«146196_j64123861729632_2_alg».proof.Proof.Gen.KernelIdeal.Value
import proofs.«146196_j64123861729632_2_alg».proof.Proof.Gen.ReferenceIdeal.Run
import proofs.«146196_j64123861729632_2_alg».proof.Proof.Gen.ReferenceIdeal.Read
import proofs.«146196_j64123861729632_2_alg».proof.Proof.KernelArray
import proofs.«146196_j64123861729632_2_alg».proof.Proof.RefSpec
import Idealize.ShloMosaic.Adequacy
import Idealize.ShloMosaic.Init

noncomputable section

namespace Cert.Proof

open Idealize.ShloMosaic Idealize.SL.Sem

/-- The kernel as printed runs to the end without a fault and leaves its argument as it was. -/
theorem frame_k : Cert.frame_Kernel := fun m ρ _ => Cert.Kernel.Gen.frame m ρ

/-- So does the kernel read at exact arithmetic. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at exact arithmetic: nothing was rewritten. -/
theorem preserves : Cert.preserves_Kernel_KernelIdeal := trivial

/-- From arguments that agree, the kernel's result array and the reference's both end at the specification of the
    argument: the kernel's slab by slab, the reference's by its two contractions read entry by entry. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.val_eq_spec, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
